-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x32x128 : Shape := ⟨3, ![10000, 32, 128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x32x128 : S_.BroadcastsInDim S10000x32x128 (![] : Fin 0 → Fin S10000x32x128.rank)
  reducesTo_S10000x32x128_S_d0_1_2 : S10000x32x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x32x128 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x32x128 .f32 := Host.absf main_arg1
  let main_cst_0 : FVec F S_ .f32 := constant S_ .f32 0x7F800000#32
  let main_v5 : FVec F S10000x32x128 .f32 := broadcastInDim S10000x32x128 ![] bcast_S_S10000x32x128 main_cst_0
  let main_v6 : IVec S10000x32x128 1 := cmpf .olt main_v4 main_v5
  let main_c_1 : IVec S_ 1 := constantI S_ 1 1#1
  let main_v7 : IVec S_ 1 := (fun x v => Host.reduce IntOp.andi x v reducesTo_S10000x32x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x32x128 : Shape := ⟨3, ![10000, 32, 128]⟩
abbrev S128x128 : Shape := ⟨2, ![128, 128]⟩
abbrev S400x128 : Shape := ⟨2, ![400, 128]⟩
abbrev S400x32x128 : Shape := ⟨3, ![400, 32, 128]⟩
abbrev S12800x128 : Shape := ⟨2, ![12800, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S128x128, .f32⟩
  | .hbm, ⟨3, _⟩ => ⟨S10000x128, .f32⟩
  | .hbm, ⟨4, _⟩ => ⟨S10000x32x128, .f32⟩
  | .local _ .vmem, ⟨0, _⟩ => ⟨S400x128, .f32⟩
  | .local _ .vmem, ⟨1, _⟩ => ⟨S400x128, .f32⟩
  | .local _ .vmem, ⟨2, _⟩ => ⟨S400x32x128, .f32⟩
  | .local _ .vmem, ⟨3, _⟩ => ⟨S400x32x128, .f32⟩
  | .local _ .vmem, ⟨4, _⟩ => ⟨S128x128, .f32⟩
  | .local _ .vmem, ⟨5, _⟩ => ⟨S400x128, .f32⟩
  | .local _ .vmem, ⟨6, _⟩ => ⟨S400x128, .f32⟩
  | .local _ .vmem, ⟨7, _⟩ => ⟨S400x32x128, .f32⟩
  | .local _ .vmem, ⟨8, _⟩ => ⟨S400x32x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S400x32x128_S400x32x128_0_0_0 : ∀ a, (![0, 0, 0] : Fin 3 → Nat) a + S400x32x128.size a ≤ S400x32x128.size a
  h_S400x32x128 : 0 < S400x32x128.numel
  shapeCasts_S400x32x128_S12800x128 : S400x32x128.ShapeCasts S12800x128
  shapeCasts_S12800x128_S400x32x128 : S12800x128.ShapeCasts S400x32x128
  reduces_S400x32x128_S400x128 : S400x32x128.Reduces [1] S400x128
  inb_S400x128_S400x128_0_0 : ∀ a, (![0, 0] : Fin 2 → Nat) a + S400x128.size a ≤ S400x128.size a
  h_S400x128 : 0 < S400x128.numel
  dot_S12800x128_S128x128_S12800x128_1_0_0_1_n_n_wf : DotDims.WF S12800x128 S128x128 S12800x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32x128.size a ≤ S10000x32x128.size a
  hwx0_1 : ∀ i : grid0.Coords, EltTy.bits .f32 = 32 ∨ (Rect.block (s := S10000x32x128) S400x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x32x128.size a ≤ S10000x32x128.size a
  hwx0_4 : ∀ i : grid0.Coords, EltTy.bits .f32 = 32 ∨ (Rect.block (s := S10000x32x128) S400x32x128.size (cc0_transform_4 i) (hinb0_4 i)).WholeWords (EltTy.packing .f32)

variable [Facts₀]

def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S400x32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x32x128 : Shape := ⟨3, ![10000, 32, 128]⟩
abbrev S128x128 : Shape := ⟨2, ![128, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S128x128, .f32⟩
  | .hbm, ⟨3, _⟩ => ⟨S_, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S128x128, .f32⟩
  | .hbm, ⟨10, _⟩ => ⟨S10000x128, .f32⟩
  | .hbm, ⟨11, _⟩ => ⟨S10000x32x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S10000x32x128_S10000x128_d1 : S10000x32x128.ReducesTo [1] S10000x128
  h_S_ : 0 < S_.numel
  bcast_S_S10000x128 : S_.BroadcastsInDim S10000x128 (![] : Fin 0 → Fin S10000x128.rank)
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x32x128_S128x128_S10000x32x128_2_1_01_0_n_n_wf : DotDims.WF S10000x32x128 S128x128 S10000x32x128 [2] [1] [0, 1] [0] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x32x128_S128x128_S10000x32x128_2_1_01_0_n_n : DotDims S10000x32x128 S128x128 S10000x32x128 where
  lhsContracting := [2]
  rhsContracting := [1]
  lhsNonContracting := [0, 1]
  rhsNonContracting := [0]
  lhsBatch := []
  rhsBatch := []
  wf := dot_S10000x32x128_S128x128_S10000x32x128_2_1_01_0_n_n_wf

class Facts : Prop extends Facts₀ where

variable [Facts]
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.Aggregate.lean ====
/-
  The graph-convolution aggregator as a function of its three arrays, over the extended reals.

  A node n has a feature row x(n, ·) of 128 entries and 32 neighbour rows nb(n, k, ·). The pooled row is the node's
  own row plus the mean of its neighbour rows, the mean taken as the sum over the 32 neighbours divided by 32:
      pooled(n, d) = x(n, d) + (Σ_k nb(n, k, d)) / 32.
  Both results apply one shared linear map, the weight matrix W of shape [out, in] used transposed:
      node(n, o)   = Σ_d pooled(n, d) · W(o, d),
      nbr(n, k, o) = Σ_d nb(n, k, d) · W(o, d).
  Every entry of a result depends on ONE node's rows only, so the results over a block of consecutive nodes are the
  same functions of the block's rows (`node_rows`, `nbr_rows`): the number of nodes N is a parameter.
-/
import Idealize.ShloMosaic.PureOps.Ideal
import Idealize.ShloMosaic.Lib.ValueIdx

noncomputable section

open scoped BigOperators

namespace Cert.Aggregate

open Idealize.ShloMosaic Idealize.ShloMosaic.ValueIdx

variable {N : Nat}

/-- The divisor of the mean: the float 32.0. -/
abbrev thirtyTwo : EReal := Ideal.ofBits .f32 0x42000000#32

/-- A node's own feature plus the mean of its 32 neighbours' features. -/
def pooled (x : (⟨2, ![N, 128]⟩ : Shape).Idx → EReal) (nb : (⟨3, ![N, 32, 128]⟩ : Shape).Idx → EReal)
    (n : Fin N) (d : Fin 128) : EReal :=
  x (ix2 n d) + Ideal.div (∑ k : Fin 32, nb (ix3 n k d)) thirtyTwo

/-- The pooled row through the linear map. -/
def node (x : (⟨2, ![N, 128]⟩ : Shape).Idx → EReal) (nb : (⟨3, ![N, 32, 128]⟩ : Shape).Idx → EReal)
    (W : (⟨2, ![128, 128]⟩ : Shape).Idx → EReal) (n : Fin N) (o : Fin 128) : EReal :=
  ∑ d : Fin 128, pooled x nb n d * W (ix2 o d)

/-- One neighbour row through the linear map. -/
def nbr (nb : (⟨3, ![N, 32, 128]⟩ : Shape).Idx → EReal) (W : (⟨2, ![128, 128]⟩ : Shape).Idx → EReal)
    (n : Fin N) (k : Fin 32) (o : Fin 128) : EReal :=
  ∑ d : Fin 128, nb (ix3 n k d) * W (ix2 o d)

/-- The first result as an array. -/
def nodeOut (x : (⟨2, ![N, 128]⟩ : Shape).Idx → EReal) (nb : (⟨3, ![N, 32, 128]⟩ : Shape).Idx → EReal)
    (W : (⟨2, ![128, 128]⟩ : Shape).Idx → EReal) : (⟨2, ![N, 128]⟩ : Shape).Idx → EReal :=
  fun j => node x nb W (j 0) (j 1)

/-- The second result as an array. -/
def nbrOut (nb : (⟨3, ![N, 32, 128]⟩ : Shape).Idx → EReal) (W : (⟨2, ![128, 128]⟩ : Shape).Idx → EReal) :
    (⟨3, ![N, 32, 128]⟩ : Shape).Idx → EReal :=
  fun j => nbr nb W (j 0) (j 1) (j 2)

/-- A node's result row reads only that node's rows: if node p of one pair of arrays has the rows of node n of another
    pair, their results agree. -/
theorem node_rows {M : Nat} (x : (⟨2, ![N, 128]⟩ : Shape).Idx → EReal) (nb : (⟨3, ![N, 32, 128]⟩ : Shape).Idx → EReal)
    (xb : (⟨2, ![M, 128]⟩ : Shape).Idx → EReal) (nbb : (⟨3, ![M, 32, 128]⟩ : Shape).Idx → EReal)
    (W : (⟨2, ![128, 128]⟩ : Shape).Idx → EReal) (n : Fin N) (p : Fin M) (o : Fin 128)
    (hx : ∀ d : Fin 128, xb (ix2 p d) = x (ix2 n d))
    (hnb : ∀ (k : Fin 32) (d : Fin 128), nbb (ix3 p k d) = nb (ix3 n k d)) :
    node xb nbb W p o = node x nb W n o := by
  unfold node pooled
  refine Finset.sum_congr rfl fun d _ => ?_
  rw [hx d]
  refine congrArg (fun s => (x (ix2 n d) + Ideal.div s thirtyTwo) * W (ix2 o d)) ?_
  exact Finset.sum_congr rfl fun k _ => hnb k d

/-- The same for a neighbour row. -/
theorem nbr_rows {M : Nat} (nb : (⟨3, ![N, 32, 128]⟩ : Shape).Idx → EReal) (nbb : (⟨3, ![M, 32, 128]⟩ : Shape).Idx → EReal)
    (W : (⟨2, ![128, 128]⟩ : Shape).Idx → EReal) (n : Fin N) (p : Fin M) (k : Fin 32) (o : Fin 128)
    (hnb : ∀ d : Fin 128, nbb (ix3 p k d) = nb (ix3 n k d)) :
    nbr nbb W p k o = nbr nb W n k o := by
  unfold nbr
  exact Finset.sum_congr rfl fun d _ => by rw [hnb d]

end Cert.Aggregate

end
-- ==== Proof.BodyValue.lean ====
/-
  What the kernel body computes on one block of 400 nodes, as the aggregator's two functions of the block's rows.

  The body transposes the weight matrix once. It flattens the block's 400 × 32 neighbour rows to 12800 rows (row
  32·p + k is neighbour k of node p), multiplies by the transposed weights from a zero accumulator, and folds the
  rows back: entry (p, k, o) is Σ_d nb(p, k, d) · W(o, d). It sums each node's neighbour rows over k, divides by
  32, adds the node's own row and multiplies by the transposed weights from a zero accumulator: entry (p, o) is
  Σ_d (x(p, d) + (Σ_k nb(p, k, d)) / 32) · W(o, d). A product accumulated from zero is the plain sum of products.
-/
import proofs.«160319_g33767032881499_cont_8to1_b_404_2_alg».proof.Proof.Gen.KernelIdeal.Skeleton
import proofs.«160319_g33767032881499_cont_8to1_b_404_2_alg».proof.Proof.LibDotPlain
import proofs.«160319_g33767032881499_cont_8to1_b_404_2_alg».proof.Proof.Aggregate
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx
open Cert.Aggregate

/-- Both of the body's products are plain matrix products: left operand contracted on its last axis, right on its first. -/
theorem plain400 : DotPlain.IsPlain dot_S400x128_S128x128_S400x128_1_0_0_1_n_n := ⟨rfl, rfl, rfl, rfl, rfl, rfl⟩
theorem plain12800 : DotPlain.IsPlain dot_S12800x128_S128x128_S12800x128_1_0_0_1_n_n := ⟨rfl, rfl, rfl, rfl, rfl, rfl⟩

/-- The transposed weights at (d, o) are the weights at (o, d). -/
theorem wT_apply {F : FTy → Type} [FloatOps F] (v0 : Vec F S128x128 .f32) (d o : Fin 128) :
    k0_pay1 v0 (ix2 d o) = v0 (ix2 o d) := by
  unfold k0_pay1
  exact transpose_apply [1, 0] v0 transposes_S128x128_p1_0_S128x128 (ix2 d o) (ix2 o d)
    (fun b => match b with | ⟨0, _⟩ => rfl | ⟨1, _⟩ => rfl)

/-- The sum over a node's 32 neighbour rows, entry by entry. -/
theorem nbrSum_apply (v2 : Vec Ideal S400x32x128 .f32) (p : Fin 400) (d : Fin 128) :
    multiReduction (F := Ideal) .add [1] S400x128 v2 0x00000000#32 reduces_S400x32x128_S400x128 (.inl rfl) rfl (ix2 p d)
      = ∑ k : Fin 32, v2 (ix3 p k d) := by
  refine (Ideal.multiReduction_add_single v2 0x00000000#32 reduces_S400x32x128_S400x128 (.inl rfl) rfl (ix2 p d)).trans ?_
  exact Finset.sum_congr rfl fun k _ => congrArg v2
    (funext fun a => Fin.ext (by match a with | ⟨0, _⟩ => rfl | ⟨1, _⟩ => rfl | ⟨2, _⟩ => rfl))

/-- The block's first result: entry (p, o) is the pooled row of node p through the linear map. -/
theorem pay3_apply (v0 : Vec Ideal S128x128 .f32) (v2 : Vec Ideal S400x32x128 .f32) (v10 : Vec Ideal S400x128 .f32)
    (p : Fin 400) (o : Fin 128) :
    k0_pay3 (F := Ideal) v0 v2 v10 (ix2 p o) = node v10 v2 v0 p o := by
  unfold k0_pay3
  refine (DotPlain.matmul_zero_apply plain400 none _ _ (ix2 p o)).trans ?_
  unfold node pooled
  refine Finset.sum_congr rfl fun d _ => ?_
  show (v10 (ix2 p d) + Ideal.div (multiReduction (F := Ideal) .add [1] S400x128 v2 0x00000000#32
      reduces_S400x32x128_S400x128 (.inl rfl) rfl (ix2 p d)) thirtyTwo) * k0_pay1 v0 (ix2 d o) = _
  rw [wT_apply, nbrSum_apply]

/-- Row 32·p + k of the flattened neighbour rows is neighbour k of node p. -/
theorem flat_apply {α : Type} (v2 : S400x32x128.Idx → α) (p : Fin 400) (k : Fin 32) (d : Fin 128) (r : Fin 12800)
    (hr : r.val = p.val * 32 + k.val) :
    shapeCast S12800x128 v2 shapeCasts_S400x32x128_S12800x128 (ix2 r d) = v2 (ix3 p k d) :=
  shapeCast_apply v2 shapeCasts_S400x32x128_S12800x128 (ix2 r d) (ix3 p k d) (by
    rw [Shape.rowMajor_val_three, Shape.rowMajor_val_two]
    show (p.val * 32 + k.val) * 128 + d.val = r.val * 128 + d.val
    rw [hr])

/-- The block's second result: entry (p, k, o) is neighbour row (p, k) through the linear map. -/
theorem pay2_apply (v0 : Vec Ideal S128x128 .f32) (v2 : Vec Ideal S400x32x128 .f32)
    (p : Fin 400) (k : Fin 32) (o : Fin 128) :
    k0_pay2 (F := Ideal) v0 v2 (ix3 p k o) = nbr v2 v0 p k o := by
  unfold k0_pay2
  have hr : p.val * 32 + k.val < 12800 := by have := p.isLt; have := k.isLt; omega
  refine (shapeCast_apply _ shapeCasts_S12800x128_S400x32x128 (ix3 p k o)
    (ix2 (⟨p.val * 32 + k.val, hr⟩ : Fin 12800) o) (by
      rw [Shape.rowMajor_val_two, Shape.rowMajor_val_three]; rfl)).trans ?_
  refine (DotPlain.matmul_zero_apply plain12800 none _ _ _).trans ?_
  unfold nbr
  refine Finset.sum_congr rfl fun d _ => ?_
  show shapeCast S12800x128 v2 shapeCasts_S400x32x128_S12800x128 (ix2 (⟨p.val * 32 + k.val, hr⟩ : Fin 12800) d)
    * k0_pay1 v0 (ix2 d o) = _
  rw [wT_apply, flat_apply v2 p k d _ rfl]

end Cert.KernelIdeal.BodyValue

end
-- ==== Proof.KernelValue.lean ====
/-
  The kernel's two result arrays after its run, as the aggregator's functions of the whole argument arrays.

  The grid has 25 points; point t works on nodes 400·t … 400·t + 399: its blocks of the node features, of the
  neighbour features and of both results are those nodes' rows, and its block of the weights is the whole matrix.
  Every entry of a result depends on one node's rows only, so what point t writes back is block t of the aggregator
  applied to the whole arrays; node n lies in the block of point n / 400, so the 25 blocks cover each result array,
  which therefore ends holding the aggregator's function everywhere.
-/
import proofs.«160319_g33767032881499_cont_8to1_b_404_2_alg».proof.Proof.Gen.KernelIdeal.Value
import proofs.«160319_g33767032881499_cont_8to1_b_404_2_alg».proof.Proof.BodyValue

noncomputable section

open scoped BigOperators

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Aggregate

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at point t: the row-blocked windows at block row t, the weights at the origin. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Point t's block of the node features: row p is node 400·t + p. -/
theorem xblk_apply (c : Dev nD) (t : Fin cfg0.N) (p : Fin 400) (d : Fin 128) (n : Fin 10000) (hn : n.val = t.val * 400 + p.val) :
    (iblk m c 0 t : Vec Ideal S400x128 .f32) (ix2 p d) = (V m c main_arg0 : S10000x128.Idx → EReal) (ix2 n d) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 400 + 1 * p.val = n.val; rw [e0, hn]; omega
  | ⟨1, _⟩ => show win0_0.index t (1 : Fin 2) * 128 + 1 * d.val = d.val; rw [e1]; omega

/-- Point t's block of the neighbour features: row (p, k) is neighbour k of node 400·t + p. -/
theorem nbblk_apply (c : Dev nD) (t : Fin cfg0.N) (p : Fin 400) (k : Fin 32) (d : Fin 128) (n : Fin 10000)
    (hn : n.val = t.val * 400 + p.val) :
    (iblk m c 1 t : Vec Ideal S400x32x128 .f32) (ix3 p k d) = (V m c main_arg1 : S10000x32x128.Idx → EReal) (ix3 n k d) := by
  obtain ⟨-, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 400 + 1 * p.val = n.val; rw [e0, hn]; omega
  | ⟨1, _⟩ => show win0_1.index t (1 : Fin 3) * 32 + 1 * k.val = k.val; rw [e1]; omega
  | ⟨2, _⟩ => show win0_1.index t (2 : Fin 3) * 128 + 1 * d.val = d.val; rw [e2]; omega

/-- Point t's block of the weights is the whole weight matrix. -/
theorem wblk_eq (c : Dev nD) (t : Fin cfg0.N) :
    (iblk m c 2 t : Vec Ideal S128x128 .f32) = (V m c main_arg2 : S128x128.Idx → EReal) := by
  obtain ⟨-, -, -, -, -, e0, e1, -⟩ := idx_facts t
  funext y
  unfold iblk
  rw [View.read_apply]
  show V m c main_arg2 _ = V m c main_arg2 _
  refine congrArg (V m c main_arg2) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- A block of 400 consecutive nodes: if the block's rows are the rows of nodes 400·T … of the whole arrays, the body's
    first result at (p, o) is the aggregator's first function of the whole arrays at (400·T + p, o). -/
theorem block_node (x : S10000x128.Idx → EReal) (nb : S10000x32x128.Idx → EReal) (W : S128x128.Idx → EReal)
    (xb : Vec Ideal S400x128 .f32) (nbb : Vec Ideal S400x32x128 .f32) (T : Nat)
    (hx : ∀ (p : Fin 400) (d : Fin 128) (n : Fin 10000), n.val = T * 400 + p.val → xb (ix2 p d) = x (ix2 n d))
    (hnb : ∀ (p : Fin 400) (k : Fin 32) (d : Fin 128) (n : Fin 10000), n.val = T * 400 + p.val →
      nbb (ix3 p k d) = nb (ix3 n k d))
    (y : S400x128.Idx) (i : S10000x128.Idx) (h0 : (i 0).val = T * 400 + (y 0).val) (h1 : (i 1).val = (y 1).val) :
    k0_pay3 (F := Ideal) W nbb xb y = nodeOut x nb W i := by
  obtain ⟨p, o, rfl⟩ : ∃ (p : Fin 400) (o : Fin 128), y = ix2 p o := ⟨y 0, y 1, eq_ix2 y⟩
  obtain ⟨n, o', rfl⟩ : ∃ (n : Fin 10000) (o' : Fin 128), i = ix2 n o' := ⟨i 0, i 1, eq_ix2 i⟩
  have ho : o' = o := Fin.ext h1
  subst ho
  rw [BodyValue.pay3_apply]
  show node xb nbb W p o' = node x nb W n o'
  exact node_rows x nb xb nbb W n p o' (fun d => hx p d n h0) (fun k d => hnb p k d n h0)

/-- The same for the second result at (p, k, o) and (400·T + p, k, o). -/
theorem block_nbr (nb : S10000x32x128.Idx → EReal) (W : S128x128.Idx → EReal) (nbb : Vec Ideal S400x32x128 .f32) (T : Nat)
    (hnb : ∀ (p : Fin 400) (k : Fin 32) (d : Fin 128) (n : Fin 10000), n.val = T * 400 + p.val →
      nbb (ix3 p k d) = nb (ix3 n k d))
    (y : S400x32x128.Idx) (i : S10000x32x128.Idx) (h0 : (i 0).val = T * 400 + (y 0).val) (h1 : (i 1).val = (y 1).val)
    (h2 : (i 2).val = (y 2).val) :
    k0_pay2 (F := Ideal) W nbb y = nbrOut nb W i := by
  obtain ⟨p, k, o, rfl⟩ : ∃ (p : Fin 400) (k : Fin 32) (o : Fin 128), y = ix3 p k o := ⟨y 0, y 1, y 2, eq_ix3 y⟩
  obtain ⟨n, k', o', rfl⟩ : ∃ (n : Fin 10000) (k' : Fin 32) (o' : Fin 128), i = ix3 n k' o' := ⟨i 0, i 1, i 2, eq_ix3 i⟩
  have hk : k' = k := Fin.ext h1
  have ho : o' = o := Fin.ext h2
  subst hk ho
  rw [BodyValue.pay2_apply]
  show nbr nbb W p k' o' = nbr nb W n k' o'
  exact nbr_rows nb nbb W n p k' o' (fun d => hnb p k' d n h0)

/-- WHAT POINT t WRITES BACK to the first result is block t of the aggregator's first function of the whole arrays. -/
theorem flushed3_eq (c : Dev nD) (t : Fin cfg0.N) :
    (dats m 0 c).flushed 3 t = ((cfg0.win 3).blk t).view.read (Elt Ideal)
      (nodeOut (V m c main_arg0) (V m c main_arg1) (V m c main_arg2)) := by
  rw [Cert.KernelIdeal.Value.flushed3]
  unfold out0_3
  rw [View.canon_unit_zero hz2]
  simp only [View.ld_unit_zero (S := S400x128) hz2, View.ld_unit_zero (S := S400x32x128) hz3,
    View.ld_unit_zero (S := S128x128) hz2]
  rw [wblk_eq]
  obtain ⟨-, -, -, -, -, -, -, e0, e1, -⟩ := idx_facts t
  funext j
  show k0_pay3 (F := Ideal) (V m c main_arg2) (iblk m c 1 t) (iblk m c 0 t) j
    = nodeOut (V m c main_arg0) (V m c main_arg1) (V m c main_arg2) (((cfg0.win 3).blk t).view.emb j)
  refine block_node (V m c main_arg0) (V m c main_arg1) (V m c main_arg2) (iblk m c 0 t) (iblk m c 1 t) t.val
    (fun p d n hn => xblk_apply m c t p d n hn) (fun p k d n hn => nbblk_apply m c t p k d n hn) j
    (((cfg0.win 3).blk t).view.emb j) ?_ ?_
  · show win0_3.index t (0 : Fin 2) * 400 + 1 * (j (0 : Fin 2)).val = t.val * 400 + (j (0 : Fin 2)).val
    rw [e0]; omega
  · show win0_3.index t (1 : Fin 2) * 128 + 1 * (j (1 : Fin 2)).val = (j (1 : Fin 2)).val
    rw [e1]; omega

/-- WHAT POINT t WRITES BACK to the second result is block t of the aggregator's second function of the whole arrays. -/
theorem flushed4_eq (c : Dev nD) (t : Fin cfg0.N) :
    (dats m 0 c).flushed 4 t = ((cfg0.win 4).blk t).view.read (Elt Ideal)
      (nbrOut (V m c main_arg1) (V m c main_arg2)) := by
  rw [Cert.KernelIdeal.Value.flushed4]
  unfold out0_4
  rw [View.canon_unit_zero hz3]
  simp only [View.ld_unit_zero (S := S400x32x128) hz3, View.ld_unit_zero (S := S128x128) hz2]
  rw [wblk_eq]
  obtain ⟨-, -, -, -, -, -, -, -, -, e0, e1, e2⟩ := idx_facts t
  funext j
  show k0_pay2 (F := Ideal) (V m c main_arg2) (iblk m c 1 t) j
    = nbrOut (V m c main_arg1) (V m c main_arg2) (((cfg0.win 4).blk t).view.emb j)
  refine block_nbr (V m c main_arg1) (V m c main_arg2) (iblk m c 1 t) t.val
    (fun p k d n hn => nbblk_apply m c t p k d n hn) j (((cfg0.win 4).blk t).view.emb j) ?_ ?_ ?_
  · show win0_4.index t (0 : Fin 3) * 400 + 1 * (j (0 : Fin 3)).val = t.val * 400 + (j (0 : Fin 3)).val
    rw [e0]; omega
  · show win0_4.index t (1 : Fin 3) * 32 + 1 * (j (1 : Fin 3)).val = (j (1 : Fin 3)).val
    rw [e1]; omega
  · show win0_4.index t (2 : Fin 3) * 128 + 1 * (j (2 : Fin 3)).val = (j (2 : Fin 3)).val
    rw [e2]; omega

/-- An entry lies in point t's block of the first result iff each coordinate is in the block's range on its axis. -/
theorem mem_blk3 (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0_0).slice (win0_3.rect t)).set ↔ _
  rw [View.set_slice_whole, Rect.mem_set_unit]
  exact Iff.rfl

/-- The same for the second result. -/
theorem mem_blk4 (t : Fin cfg0.N) (i : S10000x32x128.Idx) :
    i ∈ ((cfg0.win 4).blk t).view.set ↔ ∀ a : Fin 3, win0_4.index t a * S400x32x128.size a ≤ (i a).val
      ∧ (i a).val < win0_4.index t a * S400x32x128.size a + S400x32x128.size a := by
  show i ∈ ((View.whole main_v0_1).slice (win0_4.rect t)).set ↔ _
  rw [View.set_slice_whole, Rect.mem_set_unit]
  exact Iff.rfl

/-- Node n's row of the first result is in the block of point n / 400. -/
theorem cover3 (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, e0, e1, -⟩ := idx_facts t
  refine ⟨t, flush0_3 t, ?_⟩
  rw [mem_blk3]
  intro a
  match a with
  | ⟨0, _⟩ =>
    show win0_3.index t (0 : Fin 2) * 400 ≤ (i 0).val ∧ (i 0).val < win0_3.index t (0 : Fin 2) * 400 + 400
    rw [e0, ht]; omega
  | ⟨1, _⟩ =>
    show win0_3.index t (1 : Fin 2) * 128 ≤ (i 1).val ∧ (i 1).val < win0_3.index t (1 : Fin 2) * 128 + 128
    rw [e1]; omega

/-- Node n's rows of the second result are in the block of point n / 400. -/
theorem cover4 (i : S10000x32x128.Idx) :
    ∃ t : Fin cfg0.N, (cfg0.win 4).flush t = true ∧ i ∈ ((cfg0.win 4).blk t).view.set := by
  have hi0 : (i 0).val < 10000 := (i 0).isLt
  have hi1 : (i 1).val < 32 := (i 1).isLt
  have hi2 : (i 2).val < 128 := (i 2).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, -, -, e0, e1, e2⟩ := idx_facts t
  refine ⟨t, flush0_4 t, ?_⟩
  rw [mem_blk4]
  intro a
  match a with
  | ⟨0, _⟩ =>
    show win0_4.index t (0 : Fin 3) * 400 ≤ (i 0).val ∧ (i 0).val < win0_4.index t (0 : Fin 3) * 400 + 400
    rw [e0, ht]; omega
  | ⟨1, _⟩ =>
    show win0_4.index t (1 : Fin 3) * 32 ≤ (i 1).val ∧ (i 1).val < win0_4.index t (1 : Fin 3) * 32 + 32
    rw [e1]; omega
  | ⟨2, _⟩ =>
    show win0_4.index t (2 : Fin 3) * 128 ≤ (i 2).val ∧ (i 2).val < win0_4.index t (2 : Fin 3) * 128 + 128
    rw [e2]; omega

/-- THE FIRST RESULT ARRAY after the run is the aggregator's first function of the argument arrays. -/
theorem final3 (c : Dev nD) : (dats m 0 c).arrAt 3 cfg0.N
    = nodeOut (m ((c : Thread nD τ).loc main_arg0)) (m ((c : Thread nD τ).loc main_arg1)) (m ((c : Thread nD τ).loc main_arg2)) :=
  (dats m 0 c).arrAt_eq_of_cover 3 (nodeOut (V m c main_arg0) (V m c main_arg1) (V m c main_arg2))
    (fun t _ => flushed3_eq m c t) cover3

/-- THE SECOND RESULT ARRAY after the run is the aggregator's second function of the argument arrays. -/
theorem final4 (c : Dev nD) : (dats m 0 c).arrAt 4 cfg0.N
    = nbrOut (m ((c : Thread nD τ).loc main_arg1)) (m ((c : Thread nD τ).loc main_arg2)) :=
  (dats m 0 c).arrAt_eq_of_cover 4 (nbrOut (V m c main_arg1) (V m c main_arg2))
    (fun t _ => flushed4_eq m c t) cover4

/-- The kernel's run, read: each result array at its function of the arguments, the arguments unchanged. -/
theorem run : θ_run defs (onTc (τ := τ) (main (F := Ideal))) ⟨m, fun _ => 0, ρ⟩ fun r => ∀ c : Dev nD,
      r.2.mem ((c : Thread nD τ).loc main_v0_0)
        = nodeOut (m ((c : Thread nD τ).loc main_arg0)) (m ((c : Thread nD τ).loc main_arg1)) (m ((c : Thread nD τ).loc main_arg2))
      ∧ r.2.mem ((c : Thread nD τ).loc main_v0_1)
        = nbrOut (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.ArrayValue

end
-- ==== Proof.RefValue.lean ====
/-
  What the reference computes, as the aggregator's two functions of its arguments.

  The reference sums each node's 32 neighbour rows from zero, divides by 32, adds the node's own row, and multiplies
  by the transposed weight matrix; separately it contracts every neighbour row with the weight matrix on the shared
  feature axis. Read entry by entry these are `Aggregate.node` and `Aggregate.nbr`: the sum from zero is the sum
  (0 + s = s on the extended reals), a transposed matrix read at (d, o) is the matrix at (o, d), and the index
  functions of the two contractions pick (n, d) × (d, o) and (n, k, d) × (o, d).
-/
import proofs.«160319_g33767032881499_cont_8to1_b_404_2_alg».proof.Proof.Gen.ReferenceIdeal.Read
import proofs.«160319_g33767032881499_cont_8to1_b_404_2_alg».proof.Proof.Aggregate

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Aggregate

/-- The first result: entry (n, o) is the pooled row of node n through the linear map. -/
theorem node_eq (x0 : (⟨S10000x128, .f32⟩ : BufTy).Contents (Elt Ideal)) (x1 : (⟨S10000x32x128, .f32⟩ : BufTy).Contents (Elt Ideal))
    (x2 : (⟨S128x128, .f32⟩ : BufTy).Contents (Elt Ideal)) :
    val_main_v5 (F := Ideal) x0 x1 x2 = nodeOut x0 x1 x2 := by
  funext i
  rw [val_main_v5_apply]
  unfold nodeOut node
  refine Finset.sum_congr rfl fun d _ => ?_
  rw [val_main_v3_apply, val_main_v2_apply, val_main_v0_apply, val_main_v1_apply, val_main_cst_0_apply,
    val_main_cst_apply, val_main_v4_apply]
  have e1 : lidx_main_v5 i d = ix2 (i 0) d :=
    funext fun a => Fin.ext (by match a with | ⟨0, _⟩ => rfl | ⟨1, _⟩ => rfl)
  have e2 : ∀ k : Fin 32, idx_main_v0 (ix2 (i 0) d) k = ix3 (i 0) k d := fun k =>
    funext fun a => Fin.ext (by match a with | ⟨0, _⟩ => rfl | ⟨1, _⟩ => rfl | ⟨2, _⟩ => rfl)
  have e3 : idx_main_v4 (ridx_main_v5 i d) = ix2 (i 1) d :=
    funext fun a => Fin.ext (by match a with | ⟨0, _⟩ => rfl | ⟨1, _⟩ => rfl)
  rw [e1, e3]
  simp only [e2, Ideal.addf_def, Ideal.hostDivf_def, Ideal.ofBits_def, Ideal.ofBits_zero_f32, zero_add]
  rfl

/-- The second result: entry (n, k, o) is neighbour row (n, k) through the linear map. -/
theorem nbr_eq (x1 : (⟨S10000x32x128, .f32⟩ : BufTy).Contents (Elt Ideal)) (x2 : (⟨S128x128, .f32⟩ : BufTy).Contents (Elt Ideal)) :
    val_main_v6 (F := Ideal) x1 x2 = nbrOut x1 x2 := by
  funext i
  rw [val_main_v6_apply]
  unfold nbrOut nbr
  refine Finset.sum_congr rfl fun d _ => ?_
  have e1 : lidx_main_v6 i d = ix3 (i 0) (i 1) d :=
    funext fun a => Fin.ext (by match a with | ⟨0, _⟩ => rfl | ⟨1, _⟩ => rfl | ⟨2, _⟩ => rfl)
  have e2 : ridx_main_v6 i d = ix2 (i 2) d :=
    funext fun a => Fin.ext (by match a with | ⟨0, _⟩ => rfl | ⟨1, _⟩ => rfl)
  rw [e1, e2]
  rfl

end Cert.ReferenceIdeal.RefValue

end
-- ==== Proof.lean ====
/-
  The certificate of the graph-convolution aggregator kernel against its reference.

  Both programs compute, from node features x [10000, 128], neighbour features nb [10000, 32, 128] and weights W
  [128, 128], the two arrays
      node(n, o)   = Σ_d (x(n, d) + (Σ_k nb(n, k, d)) / 32) · W(o, d),
      nbr(n, k, o) = Σ_d nb(n, k, d) · W(o, d)
  (`Aggregate.nodeOut`, `Aggregate.nbrOut`). The kernel walks the nodes in 25 blocks of 400 and, per block, forms
  both products with the transposed weights from a zero accumulator, the neighbour rows flattened to one matrix;
  the reference sums, divides, adds and contracts over the whole arrays. Every result entry reads one node's rows
  only, so the blocks are restrictions of the whole-array functions and tile the results; the two sides differ by
  0 + s = s, by reading a transposed matrix at swapped coordinates, and by the numbering of the flattened rows.
  No law here needs finiteness: the two sides are the same sums of the same products in the same order.
  The three frames are the generated frame runs; nothing was rewritten by idealization, so `preserves` is trivial.
-/
import proofs.«160319_g33767032881499_cont_8to1_b_404_2_alg».proof.Defs
import proofs.«160319_g33767032881499_cont_8to1_b_404_2_alg».proof.Proof.Gen.Kernel
import proofs.«160319_g33767032881499_cont_8to1_b_404_2_alg».proof.Proof.Gen.Kernel.Skeleton
import proofs.«160319_g33767032881499_cont_8to1_b_404_2_alg».proof.Proof.Gen.Kernel.Launch
import proofs.«160319_g33767032881499_cont_8to1_b_404_2_alg».proof.Proof.Gen.Kernel.Points
import proofs.«160319_g33767032881499_cont_8to1_b_404_2_alg».proof.Proof.Gen.Kernel.Frame
import proofs.«160319_g33767032881499_cont_8to1_b_404_2_alg».proof.Proof.Gen.KernelIdeal
import proofs.«160319_g33767032881499_cont_8to1_b_404_2_alg».proof.Proof.Gen.KernelIdeal.Skeleton
import proofs.«160319_g33767032881499_cont_8to1_b_404_2_alg».proof.Proof.Gen.KernelIdeal.Launch
import proofs.«160319_g33767032881499_cont_8to1_b_404_2_alg».proof.Proof.Gen.KernelIdeal.Points
import proofs.«160319_g33767032881499_cont_8to1_b_404_2_alg».proof.Proof.Gen.KernelIdeal.Frame
import proofs.«160319_g33767032881499_cont_8to1_b_404_2_alg».proof.Proof.Gen.ReferenceIdeal
import proofs.«160319_g33767032881499_cont_8to1_b_404_2_alg».proof.Proof.Gen.KernelIdeal.Value
import proofs.«160319_g33767032881499_cont_8to1_b_404_2_alg».proof.Proof.Gen.ReferenceIdeal.Run
import proofs.«160319_g33767032881499_cont_8to1_b_404_2_alg».proof.Proof.Gen.ReferenceIdeal.Read
import proofs.«160319_g33767032881499_cont_8to1_b_404_2_alg».proof.Proof.Gen.Pre_finite_inputs
import proofs.«160319_g33767032881499_cont_8to1_b_404_2_alg».proof.Proof.KernelValue
import proofs.«160319_g33767032881499_cont_8to1_b_404_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both runs end with the results at the aggregator's two functions of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReferenceIdeal.RefValue.node_eq,
      (hagree c).1, (hagree c).2.1, (hagree c).2.2]
  · rw [Cert.ReferenceIdeal.Read.val_main_v6_eq, Cert.ReferenceIdeal.RefValue.nbr_eq,
      (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
